-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8192 : Shape := ⟨2, ![4096, 8192]⟩
abbrev S_ : Shape := ⟨0, ![]⟩

class Facts : Prop where
  bcast_S_S4096x8192 : S_.BroadcastsInDim S4096x8192 (![] : Fin 0 → Fin S4096x8192.rank)
  reducesTo_S4096x8192_S_d0_1 : S4096x8192.ReducesTo [0, 1] S_
  h_S_ : 0 < S_.numel

variable [Facts]

def fn {F : FTy → Type} [FloatOps F] (main_arg0 : FVec F S4096x8192 .f32) (main_arg1 : FVec F S4096x8192 .f32) : IVec S_ 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  let main_c : IVec S_ 1 := constantI S_ 1 1#1
  let main_v3 : IVec S_ 1 := (fun x v => Host.reduce IntOp.andi x v reducesTo_S4096x8192_S_d0_1 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  main_v8
-- ==== Kernel.lean ====
abbrev S4096x8192 : Shape := ⟨2, ![4096, 8192]⟩
abbrev S16x1x8192 : Shape := ⟨3, ![16, 1, 8192]⟩
abbrev S256x8192 : Shape := ⟨2, ![256, 8192]⟩
abbrev S1x1x8192 : Shape := ⟨3, ![1, 1, 8192]⟩
abbrev S8192 : Shape := ⟨1, ![8192]⟩
abbrev S1x8192 : Shape := ⟨2, ![1, 8192]⟩
abbrev S_ : Shape := ⟨0, ![]⟩

abbrev nBuf : Space → Nat
  | .hbm => 5
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S16x1x8192, .f32⟩
  | .hbm, ⟨3, _⟩ => ⟨S_, .f32⟩
  | .hbm, ⟨4, _⟩ => ⟨S_, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | .local _ .vmem, ⟨4, _⟩ => ⟨S1x1x8192, .f32⟩
  | .local _ .vmem, ⟨5, _⟩ => ⟨S1x1x8192, .f32⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  iota_S256x8192_d0_w32 : S256x8192.Iotas .tc 32 [0]
  reduces_S256x8192_S8192 : S256x8192.Reduces [0] S8192
  shapeCasts_S8192_S1x8192 : S8192.ShapeCasts S1x8192
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  reducesTo_S16x1x8192_S_d0_1_2 : S16x1x8192.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S4096x8192.size a
  hwx0_0 : ∀ i : grid0.Coords, EltTy.bits .f32 = 32 ∨ (Rect.block (s := S4096x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S4096x8192.size a
  hwx0_1 : ∀ i : grid0.Coords, EltTy.bits .f32 = 32 ∨ (Rect.block (s := S4096x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S16x1x8192.size a
  hwx0_2 : ∀ i : grid0.Coords, EltTy.bits .f32 = 32 ∨ (Rect.block (s := S16x1x8192) S1x1x8192.size (cc0_transform_2 i) (hinb0_2 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x8192 : Shape := ⟨2, ![4096, 8192]⟩
abbrev S33554432 : Shape := ⟨1, ![33554432]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S4096x8192, .f32⟩
  | .hbm, ⟨2, _⟩ => ⟨S33554432, .f32⟩
  | .hbm, ⟨3, _⟩ => ⟨S33554432, .f32⟩
  | .hbm, ⟨4, _⟩ => ⟨S33554432, .f32⟩
  | .hbm, ⟨5, _⟩ => ⟨S_, .f32⟩
  | .hbm, ⟨6, _⟩ => ⟨S33554432, .f32⟩
  | .hbm, ⟨7, _⟩ => ⟨S33554432, .i1⟩
  | .hbm, ⟨8, _⟩ => ⟨S33554432, .f32⟩
  | .hbm, ⟨9, _⟩ => ⟨S_, .f32⟩
  | .hbm, ⟨10, _⟩ => ⟨S_, .f32⟩
  | .hbm, ⟨11, _⟩ => ⟨S33554432, .f32⟩
  | .hbm, ⟨12, _⟩ => ⟨S33554432, .f32⟩
  | .hbm, ⟨13, _⟩ => ⟨S_, .f32⟩
  | .hbm, ⟨14, _⟩ => ⟨S_, .f32⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩

abbrev nD : Nat := 1
abbrev τ : Topo := Topo.v7x

variable {F : FTy → Type} [FloatOps F]

class Facts₀ : Prop where
  shapeCasts_S4096x8192_S33554432 : S4096x8192.ShapeCasts S33554432
  bcast_S_S33554432 : S_.BroadcastsInDim S33554432 (![] : Fin 0 → Fin S33554432.rank)
  reducesTo_S33554432_S_d0 : S33554432.ReducesTo [0] S_
  h_S_ : 0 < S_.numel

variable [Facts₀]

class Facts : Prop extends Facts₀ where

variable [Facts]
-- ==== Proof.Spec.lean ====
/-
  The mathematics of the masked squared error, with no program in sight.

  Over two f32[4096, 8192] arrays `P` (the prediction) and `T` (the target), read as extended reals, one entry
  contributes `(t - p)²` when its target `t` is not `-1`, and the zero word's value otherwise (`entry`). The
  kernel sums these contributions in two stages: over the 256 rows of each of the 16 row blocks, column by column,
  leaving a [16, 1, 8192] array of partial sums (`partials`), and then over that array. The reference sums them
  over every entry at once. Addition on the extended reals is commutative and associative, so the two groupings agree
  for every input, finite or not (`sum_partials`): the entries are re-indexed through the bijection between
  (row block, column, row inside the block) and (row, column), row = 256 · block + row inside the block.

  Two small facts about words are kept here too: a row index `256 · block + r` computed on 32-bit words never
  reaches 4096 for `block < 16`, `r < 256`, so the kernel's row guard is the constant 1 (`row_guard`); and a
  select on the word of a decided proposition, conjoined with that 1, is the `if` on the proposition
  (`select_andi_one`, and `select_une` for the reference's unguarded form).

  The reference flattens both arguments to [33554432] first, entry `k` of the flat array being entry
  `(k / 8192, k % 8192)` of the matrix; that is a bijection too (`flatEquiv`), so its sum over the flat index is again
  the sum over every entry (`sum_flat`). Both programs start their last sum from the zero word, so both end at `total`.
-/
import Idealize.ShloMosaic.PureOps.Ideal
import Idealize.ShloMosaic.PureOps.Ideal.Laws
import Idealize.ShloMosaic.Lib.ValueIdx

noncomputable section

open scoped BigOperators

namespace Cert.MaskedSse

open Idealize.ShloMosaic Idealize.ShloMosaic.ValueIdx

/-- The shape of the two arguments. -/
abbrev SA : Shape := ⟨2, ![4096, 8192]⟩
/-- The shape of the partial sums: one row of 8192 columns per row block. -/
abbrev SP : Shape := ⟨3, ![16, 1, 8192]⟩

/-- One entry's contribution: the squared difference where the target is not `-1.0` (the word `0xBF800000`),
    and the zero word's value where it is. -/
def entry (p t : EReal) : EReal :=
  if t ≠ Ideal.ofBits .f32 0xBF800000#32 then (t - p) * (t - p) else Ideal.ofBits .f32 0x00000000#32

/-- Row `r` of row block `b`, at column `n`: the entry `(256 · b + r, n)` of an argument. -/
def rowIx (b : Fin 16) (r : Fin 256) (n : Fin 8192) : SA.Idx :=
  ix2 (⟨256 * b.val + r.val, by have := b.isLt; have := r.isLt; omega⟩ : Fin 4096) n

/-- The partial sums the kernel leaves: at (row block `b`, 0, column `n`) the sum over the block's 256 rows of the
    entries' contributions in that column. -/
def partials (P T : SA.Idx → EReal) : SP.Idx → EReal :=
  fun j => ∑ r : Fin 256, entry (P (rowIx (j 0) r (j 2))) (T (rowIx (j 0) r (j 2)))

/-- (row block, unit, column) together with a row inside the block is a (row, column), bijectively. -/
def blockEquiv : SP.Idx × Fin 256 ≃ SA.Idx where
  toFun x := rowIx (x.1 0) x.2 (x.1 2)
  invFun i := (ix3 (⟨(i 0).val / 256, by have : (i 0).val < 4096 := (i 0).isLt; omega⟩ : Fin 16) (0 : Fin 1) (i 1),
    (⟨(i 0).val % 256, Nat.mod_lt _ (by decide)⟩ : Fin 256))
  left_inv x := by
    obtain ⟨j, r⟩ := x
    have h0 : (j 0).val < 16 := (j 0).isLt
    have h1 : (j 1).val < 1 := (j 1).isLt
    have hr : r.val < 256 := r.isLt
    refine Prod.ext (funext fun a => ?_) (Fin.ext ?_)
    · match a with
      | ⟨0, _⟩ => exact Fin.ext (by show (256 * (j 0).val + r.val) / 256 = (j 0).val; omega)
      | ⟨1, _⟩ => exact Fin.ext (by show 0 = (j 1).val; omega)
      | ⟨2, _⟩ => rfl
    · show (256 * (j 0).val + r.val) % 256 = r.val; omega
  right_inv i := by
    funext a
    match a with
    | ⟨0, _⟩ => exact Fin.ext (by show 256 * ((i 0).val / 256) + (i 0).val % 256 = (i 0).val; omega)
    | ⟨1, _⟩ => rfl

/-- THE LAW: summing the partial sums is summing every entry's contribution. Only commutativity and associativity
    of addition are used, so nothing is asked of the entries. -/
theorem sum_partials (P T : SA.Idx → EReal) : ∑ j, partials P T j = ∑ i, entry (P i) (T i) := by
  unfold partials
  rw [← Equiv.sum_comp blockEquiv (fun i => entry (P i) (T i)), Fintype.sum_prod_type]
  rfl

/-- The shape of a flattened argument. -/
abbrev SF : Shape := ⟨1, ![33554432]⟩
/-- The shape of the result: a scalar. -/
abbrev S0 : Shape := ⟨0, ![]⟩

/-- Entry `k` of a flattened argument is entry `(k / 8192, k % 8192)` of the matrix. -/
def flatIx (k : SF.Idx) : SA.Idx :=
  ix2 (⟨(k 0).val / 8192, by have : (k 0).val < 33554432 := (k 0).isLt; omega⟩ : Fin 4096)
    (⟨(k 0).val % 8192, Nat.mod_lt _ (by decide)⟩ : Fin 8192)

/-- Flattening is a bijection of the index sets. -/
def flatEquiv : SF.Idx ≃ SA.Idx where
  toFun := flatIx
  invFun i := ix1 (⟨(i 0).val * 8192 + (i 1).val, by
    have : (i 0).val < 4096 := (i 0).isLt
    have : (i 1).val < 8192 := (i 1).isLt
    omega⟩ : Fin 33554432)
  left_inv k := by
    funext a
    match a with
    | ⟨0, _⟩ => exact Fin.ext (by show (k 0).val / 8192 * 8192 + (k 0).val % 8192 = (k 0).val; omega)
  right_inv i := by
    have h1 : (i 1).val < 8192 := (i 1).isLt
    funext a
    match a with
    | ⟨0, _⟩ => exact Fin.ext (by show ((i 0).val * 8192 + (i 1).val) / 8192 = (i 0).val; omega)
    | ⟨1, _⟩ => exact Fin.ext (by show ((i 0).val * 8192 + (i 1).val) % 8192 = (i 1).val; omega)

/-- Summing over the flat index is summing over every entry. -/
theorem sum_flat (h : SA.Idx → EReal) : ∑ k : SF.Idx, h (flatIx k) = ∑ i, h i :=
  Equiv.sum_comp flatEquiv h

/-- THE RESULT both programs compute: from the zero word's value, the sum of every entry's contribution. -/
def total (P T : SA.Idx → EReal) : S0.Idx → EReal :=
  fun _ => Ideal.ofBits .f32 0x00000000#32 + ∑ i, entry (P i) (T i)

/-- The row guard: on 32-bit words, `256 · b + r` stays below 4096 for every row block and every row in it. -/
theorem row_guard : ∀ (b : Fin 16) (r : Fin 256),
    IntOp.cmpi .slt (IntOp.addi (IntOp.muli (BitVec.ofNat 32 b.val) 256#32) (BitVec.ofNat 32 r.val)) 4096#32 = 1#1 := by
  decide +kernel

/-- A select on (the word of `x ≠ y`, and 1) is the `if` on `x ≠ y`. -/
theorem select_andi_one (x y a b : EReal) :
    Scalar.select (IntOp.andi (Ideal.cmp .one x y) 1#1) a b = if x ≠ y then a else b := by
  unfold Scalar.select IntOp.andi Ideal.cmp
  by_cases h : x ≠ y
  · simp [h]
  · simp [h]

/-- A select on the word of the unordered "not equal" is the same `if`: no extended real is unordered. -/
theorem select_une (x y a b : EReal) :
    Scalar.select (Ideal.cmp .une x y) a b = if x ≠ y then a else b := by
  unfold Scalar.select Ideal.cmp
  by_cases h : x ≠ y
  · simp [h]
  · simp [h]

end Cert.MaskedSse

end
-- ==== Proof.Point.lean ====
/-
  What one grid point computes, read at an index.

  At grid point `i` the body loads the point's two [256, 8192] blocks — `x0` of the prediction, `x1` of the
  target — and stores a [1, 1, 8192] row: at column `n`, the sum over the block's 256 rows `r` of the squared
  difference `(x1 - x0)²` at `(r, n)`, kept where the target there is not `-1` and the row `256 · i + r` is below
  4096, and replaced by zero elsewhere. The row test is always passed on a grid of 16 points (`row_guard`), so
  the stored value at column `n` is the sum over `r` of `entry (x0 (r, n)) (x1 (r, n))`.

  The steps: the two shape casts [8192] → [1, 8192] → [1, 1, 8192] only prepend unit axes; the reduction over
  axis 0, at the ideal values, is the finite sum over that axis's coordinate; the summand is read through the
  pointwise operations.
-/
import proofs.«157397_j43267500540639_2_alg».proof.Proof.Gen.KernelIdeal.Skeleton
import proofs.«157397_j43267500540639_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.Point

open Idealize.ShloMosaic Idealize.ShloMosaic.ValueIdx Cert.KernelIdeal Cert.KernelIdeal.Gen Cert.MaskedSse

/-- The index the row reduction reads for row `r` of column `n`. -/
theorem lift_eq (n : Fin 8192) (r : Fin 256) :
    reduces_S256x8192_S8192.lift (ix1 n) r = ix2 r n := by
  funext a
  match a with
  | ⟨0, _⟩ => rfl
  | ⟨1, _⟩ => rfl

/-- The two casts that prepend unit axes read the row vector at its column. -/
theorem row_cast (v : FVec Ideal S8192 .f32) (n : Fin 8192) :
    shapeCast S1x1x8192 (shapeCast S1x8192 v shapeCasts_S8192_S1x8192) shapeCasts_S1x8192_S1x1x8192
      (ix3 (0 : Fin 1) (0 : Fin 1) n) = v (ix1 n) := by
  refine (shapeCast_addUnit_apply _ _ _ _).trans ?_
  refine (shapeCast_addUnit_apply _ _ _ _).trans ?_
  exact congrArg v (funext fun a => by match a with | ⟨0, _⟩ => rfl)

/-- The summand of the row reduction at `(r, n)`: the masked squared difference is `entry`. -/
theorem summand (i : grid0.Coords) (x0 x1 : FVec Ideal S256x8192 .f32) (r : Fin 256) (n : Fin 8192) :
    select (andi (cmpf .one x1 (broadcast S256x8192 (Scalar.ofBits (F := Ideal) .f32 0xBF800000#32)))
        (cmpi .slt (addi (broadcast S256x8192 (Scalar.muli (BitVec.ofNat 32 (i 0).val) 256#32))
          (iota .tc S256x8192 32 [0] iota_S256x8192_d0_w32)) (broadcast S256x8192 4096#32)))
      (mulf (subf x1 x0) (subf x1 x0)) (broadcast S256x8192 (Scalar.ofBits (F := Ideal) .f32 0x00000000#32)) (ix2 r n)
    = entry (x0 (ix2 r n)) (x1 (ix2 r n)) := by
  have hg := row_guard (i 0) r
  show Scalar.select (IntOp.andi (Ideal.cmp .one (x1 (ix2 r n)) (Ideal.ofBits .f32 0xBF800000#32))
      (IntOp.cmpi .slt (IntOp.addi (IntOp.muli (BitVec.ofNat 32 (i 0).val) 256#32)
        (iota .tc S256x8192 32 [0] iota_S256x8192_d0_w32 (ix2 r n))) 4096#32))
    ((x1 (ix2 r n) - x0 (ix2 r n)) * (x1 (ix2 r n) - x0 (ix2 r n))) (Ideal.ofBits .f32 0x00000000#32) = _
  rw [iota_single_apply]
  show Scalar.select (IntOp.andi (Ideal.cmp .one (x1 (ix2 r n)) (Ideal.ofBits .f32 0xBF800000#32))
      (IntOp.cmpi .slt (IntOp.addi (IntOp.muli (BitVec.ofNat 32 (i 0).val) 256#32) (BitVec.ofNat 32 r.val)) 4096#32))
    ((x1 (ix2 r n) - x0 (ix2 r n)) * (x1 (ix2 r n) - x0 (ix2 r n))) (Ideal.ofBits .f32 0x00000000#32) = _
  rw [hg, select_andi_one]
  rfl

/-- THE POINT'S ROW at column `n`. -/
theorem pay_apply (i : grid0.Coords) (x0 x1 : Vec Ideal S256x8192 .f32) (n : Fin 8192) :
    k0_pay1 (F := Ideal) i x0 x1 (ix3 (0 : Fin 1) (0 : Fin 1) n)
      = ∑ r : Fin 256, entry (x0 (ix2 r n)) (x1 (ix2 r n)) := by
  unfold k0_pay1
  refine (row_cast _ n).trans ?_
  refine (Ideal.multiReduction_add_single _ _ reduces_S256x8192_S8192 _ _ (ix1 n)).trans ?_
  refine Finset.sum_congr rfl fun r _ => ?_
  rw [lift_eq n r]
  exact summand i x0 x1 r n

end Cert.KernelIdeal.Point

end
-- ==== Proof.KernelValue.lean ====
/-
  The kernel's program, read: its result is `total` of the two arguments.

  The grid has 16 points; point `t` stages rows `256 · t … 256 · t + 255` of both arguments (all 8192 columns) and
  writes back row `t` of the [16, 1, 8192] array of partial sums. With the point's row known index by index
  (`pay_apply`: at column `n`, the sum over the block's rows of the entries' contributions), three things remain.

  * WHAT A POINT WRITES BACK is block `t` of ONE function of the arguments, `partials` (`flushed_eq`): an element
    `(r, n)` of an input block at point `t` is the argument's element `(256 · t + r, n)` — a block's coordinate is
    its block index times the block size plus the coordinate inside the block, and the three index maps send point
    `t` to row block `t` (decided over the 16 points, `idx_facts`).
  * THE BLOCKS COVER the array of partial sums: index `(b, 0, n)` is in the block of the point with block index `b`
    (`cover`), so after the region the array IS `partials` of the arguments (`final`).
  * THE HOST'S LAST LINE sums that array from the zero word; a sum into a scalar is the sum over every index, and
    the sum of the partial sums is the sum of every entry's contribution (`sum_partials`): the result buffer ends at
    `total` (`tail_eq`), and the two arguments end as launched (`run`).
-/
import proofs.«157397_j43267500540639_2_alg».proof.Proof.FrameKernelIdeal
import proofs.«157397_j43267500540639_2_alg».proof.Proof.Point
import proofs.«157397_j43267500540639_2_alg».proof.Proof.Spec
import Idealize.ShloMosaic.Lib.Pipeline.Value
import Idealize.ShloMosaic.Lib.StableHlo.Run
import Idealize.ShloMosaic.PureOps.Ideal.Laws

noncomputable section

open scoped BigOperators

namespace Cert.KernelIdeal.Blocks

open Cert.KernelIdeal Cert.KernelIdeal.Gen Cert.KernelIdeal.GenP Cert.KernelIdeal.Point Cert.MaskedSse
open Idealize.ShloMosaic Idealize.ShloMosaic.TcCoe Idealize.SL.Sem Idealize.ShloMosaic.ValueIdx
open Idealize.ShloMosaic.Pipeline (Dat)
open Idealize.ShloMosaic.StableHlo

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The printed index maps, decided over the 16 grid points. -/
theorem idx_facts : ∀ t : Fin cfg0.N,
    win0_0.index t (0 : Fin 2) = win0_2.index t (0 : Fin 3) ∧ win0_0.index t (1 : Fin 2) = 0
    ∧ win0_1.index t (0 : Fin 2) = win0_2.index t (0 : Fin 3) ∧ win0_1.index t (1 : Fin 2) = 0
    ∧ win0_2.index t (1 : Fin 3) = 0 ∧ win0_2.index t (2 : Fin 3) = 0
    ∧ win0_2.index t (0 : Fin 3) < 16 :=
  (by decide +kernel : ∀ t : Fin grid0.N, _)

theorem idx_onto : ∀ q : Fin 16, ∃ t : Fin cfg0.N, win0_2.index t = ![q.val, 0, 0] :=
  (by decide +kernel : ∀ q : Fin 16, ∃ t : Fin grid0.N, win0_2.index t = ![q.val, 0, 0])

/-- The point's whole row. -/
theorem point_row (i : grid0.Coords) (x0 x1 : Vec Ideal S256x8192 .f32) (y : S1x1x8192.Idx) :
    k0_pay1 (F := Ideal) i x0 x1 y = ∑ r : Fin 256, entry (x0 (ix2 r (y 2))) (x1 (ix2 r (y 2))) := by
  obtain ⟨a, b, n, rfl⟩ : ∃ (a : Fin 1) (b : Fin 1) (n : Fin 8192), y = ix3 a b n := ⟨y 0, y 1, y 2, eq_ix3 y⟩
  obtain rfl : a = 0 := Subsingleton.elim _ _
  obtain rfl : b = 0 := Subsingleton.elim _ _
  exact pay_apply i x0 x1 n

theorem flushed_eq (c : Dev nD) (t : Fin cfg0.N) :
    (dats m 0 c).flushed 2 t = ((cfg0.win 2).blk t).view.read (Elt Ideal) (partials (V m c main_arg0) (V m c main_arg1)) := by
  show (cfg0.win 2).cut (grid0.coords t) ((dats m 0 c).after 2 t) = _
  rw [after0_2]
  unfold out0_2
  rw [View.canon_unit_zero hz3]
  simp only [View.ld_unit_zero (S := S256x8192) hz2]
  funext y
  show k0_pay1 (F := Ideal) (grid0.coords t) (iblk m c 0 t) (iblk m c 1 t) y
      = partials (V m c main_arg0) (V m c main_arg1) (((cfg0.win 2).blk t).view.emb y)
  refine (point_row (grid0.coords t) (iblk m c 0 t) (iblk m c 1 t) y).trans ?_
  unfold partials
  refine Finset.sum_congr rfl fun r _ => ?_
  obtain ⟨e0, e1, e2, e3, e4, e5, e6⟩ := idx_facts t
  have hy0 : (y 0).val < 1 := (y 0).isLt
  refine congrArg₂ entry ?_ ?_
  · show V m c main_arg0 (((cfg0.win 0).blk t).view.emb (ix2 r (y 2))) = _
    refine congrArg (V m c main_arg0) ?_
    funext a; apply Fin.ext
    match a with
    | ⟨0, _⟩ => show win0_0.index t (0 : Fin 2) * 256 + 1 * r.val = 256 * (win0_2.index t (0 : Fin 3) * 1 + 1 * (y 0).val) + r.val; omega
    | ⟨1, _⟩ => show win0_0.index t (1 : Fin 2) * 8192 + 1 * (y 2).val = win0_2.index t (2 : Fin 3) * 8192 + 1 * (y 2).val; omega
  · show V m c main_arg1 (((cfg0.win 1).blk t).view.emb (ix2 r (y 2))) = _
    refine congrArg (V m c main_arg1) ?_
    funext a; apply Fin.ext
    match a with
    | ⟨0, _⟩ => show win0_1.index t (0 : Fin 2) * 256 + 1 * r.val = 256 * (win0_2.index t (0 : Fin 3) * 1 + 1 * (y 0).val) + r.val; omega
    | ⟨1, _⟩ => show win0_1.index t (1 : Fin 2) * 8192 + 1 * (y 2).val = win0_2.index t (2 : Fin 3) * 8192 + 1 * (y 2).val; omega

/-- An index of the partial sums' array is in point `t`'s block iff each coordinate is in the block's range. -/
theorem mem_blk (t : Fin cfg0.N) (i : S16x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v0).slice (win0_2.rect t)).set ↔ _
  rw [View.set_slice_whole, Rect.mem_set_unit]
  exact Iff.rfl

/-- Every index of the partial sums' array is in the block of the point its first coordinate names. -/
theorem cover (i : S16x1x8192.Idx) :
    ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 8192 := (i 2).isLt
  obtain ⟨t, ht⟩ := idx_onto ⟨(i 0).val, hi0⟩
  have q0 : win0_2.index t (0 : Fin 3) = (i 0).val := congrFun ht 0
  have q1 : win0_2.index t (1 : Fin 3) = 0 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8192 ≤ (i 2).val ∧ (i 2).val < win0_2.index t (2 : Fin 3) * 8192 + 8192; omega

/-- THE ARRAY of partial sums after the region. -/
theorem final (c : Dev nD) : (dats m 0 c).arrAt 2 cfg0.N = partials (V m c main_arg0) (V m c main_arg1) :=
  (dats m 0 c).arrAt_eq_of_cover 2 _ (fun t _ => flushed_eq m c t) cover

/-- The result buffer is none of the region's arrays. -/
theorem v1_rest : main_v1 ∈ Pipeline.restRefs sig (cfgs 0).spec :=
  Pipeline.mem_restRefs_of main_v1 rfl (fun w => by fin_cases w <;> decide)

/-- THE HOST'S LAST SUM, from the zero word over the partial sums, is `total`. -/
theorem tail_eq (c : Dev nD) :
    Pipeline.afterTail₀ cfgs (dats m) 0 (V0 m) [hostOps1] c main_v1
      = total (m ((c : Thread nD τ).loc main_arg0)) (m ((c : Thread nD τ).loc main_arg1)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.devRef .tc main_v0)
      = partials (V m c main_arg0) (V m c main_arg1) :=
    (Pipeline.withArrays_arr spec0 launch0.win.arr_inj c _ _ 2).trans (final m c)
  rw [hA]
  funext j
  simp only [Host.reduceAdd, Ideal.hostReduceAdd_def]
  refine (Ideal.hostReduceAdd_total reducesTo_S16x1x8192_S_d0_1_2 (fun b => b.elim0) _ _ j).trans ?_
  unfold total
  refine congrArg (fun s => Ideal.ofBits .f32 0x00000000#32 + s) ?_
  exact sum_partials _ _

/-- THE KERNEL'S RUN, read: every weakly fair execution terminates with the result at `total` of the arguments, the
    arguments unchanged. -/
theorem run : θ_run defs (onTc (τ := τ) (main (F := Ideal))) ⟨m, fun _ => 0, ρ⟩ fun r => ∀ c : Dev nD,
      r.2.mem ((c.tc : Thread nD τ).loc main_v1)
        = total (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Blocks

end
-- ==== Proof.RefValue.lean ====
/-
  The reference, read: its result is `total` of the two arguments.

  The reference flattens both arguments, subtracts, squares, replaces by zero the entries whose target is `-1` (a
  select on the unordered "not equal" against the splat of `-1`), and sums the flat array from zero. Read one
  operation at a time, its summand at flat index `k` is `entry` of the two arguments at `(k / 8192, k % 8192)`
  (`masked_apply`), and the sum over the flat index is the sum over every entry (`sum_flat`).
-/
import proofs.«157397_j43267500540639_2_alg».proof.Proof.Gen.ReferenceIdeal.Read
import proofs.«157397_j43267500540639_2_alg».proof.Proof.Spec
import Idealize.ShloMosaic.Lib.ValueIdx

noncomputable section

open scoped BigOperators

namespace Cert.ReferenceIdeal.RefValue

open Cert.ReferenceIdeal Cert.ReferenceIdeal.Gen Cert.ReferenceIdeal.Read Cert.MaskedSse
open Idealize.ShloMosaic Idealize.ShloMosaic.ValueIdx

/-- The reshape's index is the flattening's. -/
theorem idx0_eq (k : S33554432.Idx) : idx_main_v0 k = flatIx k := by
  funext a
  match a with
  | ⟨0, _⟩ => rfl
  | ⟨1, _⟩ => rfl

theorem idx1_eq (k : S33554432.Idx) : idx_main_v1 k = flatIx k := by
  funext a
  match a with
  | ⟨0, _⟩ => rfl
  | ⟨1, _⟩ => rfl

/-- One summand of the reference's sum is the entry's contribution. -/
theorem masked_apply (x0 x1 : (⟨S4096x8192, .f32⟩ : BufTy).Contents (Elt Ideal)) (k : S33554432.Idx) :
    val_main_v6 (F := Ideal) x0 x1 k = entry (x0 (flatIx k)) (x1 (flatIx k)) := by
  rw [val_main_v6_apply, val_main_v4_apply, val_main_v5_apply, val_main_v2_apply, val_main_v1_apply, val_main_v0_apply,
    val_main_v3_apply, val_main_cst_apply, val_main_call0_v1_apply, val_main_call0_v0_apply, val_main_cst_0_apply,
    idx0_eq, idx1_eq]
  show Scalar.select (Ideal.cmp .une (x1 (flatIx k)) (Ideal.ofBits .f32 0xBF800000#32))
    ((x1 (flatIx k) - x0 (flatIx k)) * (x1 (flatIx k) - x0 (flatIx k))) (Ideal.ofBits .f32 0x00000000#32) = _
  rw [select_une]
  rfl

/-- THE REFERENCE'S RESULT is `total` of its arguments. -/
theorem result_eq (x0 x1 : (⟨S4096x8192, .f32⟩ : BufTy).Contents (Elt Ideal)) :
    val_main_v7 (F := Ideal) x0 x1 = total x0 x1 := by
  funext i
  rw [val_main_v7_apply, val_main_cst_1_apply]
  unfold total
  refine congrArg (fun s => Ideal.ofBits .f32 0x00000000#32 + s) ?_
  rw [← sum_flat]
  exact Finset.sum_congr rfl fun k _ => masked_apply x0 x1 k

end Cert.ReferenceIdeal.RefValue

end
-- ==== Proof.lean ====
/-
  The masked squared error, kernel against reference, over the extended reals.

  Both programs take a prediction and a target, f32[4096, 8192], and return one number: the sum, over the entries
  whose target is not `-1`, of the squared difference `(target - prediction)²`. The kernel walks 16 blocks of 256
  rows, sums each block's contributions column by column into a [16, 1, 8192] array of partial sums (guarding each
  row by `256 · block + row < 4096`, which always holds), and the host then sums that array. The reference flattens
  both arguments and sums the masked squares in one go. At the ideal values every operation is exact, the ordered and
  unordered "not equal" are one comparison, and the two results differ only in the grouping of one finite sum;
  addition on the extended reals is commutative and associative, so they are equal for EVERY input — the precondition
  is not used for the equation. The statement of that common value is `Cert.MaskedSse.total` (Proof/Spec.lean); the
  kernel's program ends there by Proof/KernelValue.lean (over Proof/Point.lean, one grid point's row), the reference
  by Proof/RefValue.lean.

  The three frame claims: the two kernel programs' from their frame certificates (Proof/FrameKernel.lean,
  Proof/FrameKernelIdeal.lean), the reference's from its run with the result dropped. The idealization rewrote
  nothing, so `preserves` is `True`.
-/
import proofs.«157397_j43267500540639_2_alg».proof.Defs
import proofs.«157397_j43267500540639_2_alg».proof.Proof.Gen.Kernel
import proofs.«157397_j43267500540639_2_alg».proof.Proof.FrameKernel
import proofs.«157397_j43267500540639_2_alg».proof.Proof.Gen.KernelIdeal
import proofs.«157397_j43267500540639_2_alg».proof.Proof.FrameKernelIdeal
import proofs.«157397_j43267500540639_2_alg».proof.Proof.Gen.ReferenceIdeal
import proofs.«157397_j43267500540639_2_alg».proof.Proof.Gen.ReferenceIdeal.Run
import proofs.«157397_j43267500540639_2_alg».proof.Proof.Gen.ReferenceIdeal.Read
import proofs.«157397_j43267500540639_2_alg».proof.Proof.Gen.Pre_finite_inputs
import proofs.«157397_j43267500540639_2_alg».proof.Proof.Spec
import proofs.«157397_j43267500540639_2_alg».proof.Proof.KernelValue
import proofs.«157397_j43267500540639_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and keeps its arguments. -/
theorem frame_k : Cert.frame_Kernel := fun m ρ _ => Cert.Kernel.GenP.frame m ρ

/-- The idealized kernel program runs and keeps its arguments. -/
theorem frame_ki : Cert.frame_KernelIdeal := fun m ρ _ => Cert.KernelIdeal.GenP.frame m ρ

/-- The reference runs and keeps its arguments: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the idealized kernel. -/
theorem preserves : Cert.preserves_Kernel_KernelIdeal := trivial

/-- From memories agreeing on the arguments both programs end at `total` of the arguments: the kernel's by its
    blocks and the host's last sum, the reference's by its flat sum. -/
theorem algebraic : Cert.algebraic_KernelIdeal_ReferenceIdeal := by
  intro m ρ m' ρ' _ hagree
  refine ⟨fun c => Cert.MaskedSse.total (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v7_eq, Cert.ReferenceIdeal.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
